-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S40x64 : Shape := ⟨2, ![40, 64]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x64 .f32) (main_arg1 : IVec S2x1600000 32) (main_arg2 : FVec F S40x64 .f32) (main_arg3 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S40x64 : Shape := ⟨2, ![40, 64]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x40 : Shape := ⟨2, ![100000, 40]⟩
abbrev S5000x64 : Shape := ⟨2, ![5000, 64]⟩
abbrev S5000x40 : Shape := ⟨2, ![5000, 40]⟩
abbrev S64x40 : Shape := ⟨2, ![64, 40]⟩
abbrev S1x40 : Shape := ⟨2, ![1, 40]⟩
abbrev S5000 : Shape := ⟨1, ![5000]⟩
abbrev S5000x1 : Shape := ⟨2, ![5000, 1]⟩

abbrev nBuf : Space → Nat
  | .hbm => 76
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x64, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S40x64, .f32⟩
  | .local _ .vmem, ⟨3, _⟩ => ⟨S40, .f32⟩
  | .local _ .vmem, ⟨4, _⟩ => ⟨S5000x40, .f32⟩
  | .local _ .vmem, ⟨5, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  transposes_S40x64_p1_0_S64x40 : S40x64.Transposes [1, 0] S64x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x64.size a ≤ S40x64.size a
  hwx0_1 : ∀ i : grid0.Coords, EltTy.bits .f32 = 32 ∨ (Rect.block (s := S40x64) S40x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x40.size a ≤ S100000x40.size a
  hwx0_3 : ∀ i : grid0.Coords, EltTy.bits .f32 = 32 ∨ (Rect.block (s := S100000x40) S5000x40.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v54) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S5000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S40x64 : Shape := ⟨2, ![40, 64]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x40 : Shape := ⟨2, ![64, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x64, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S64x40, .f32⟩
  | .hbm, ⟨76, _⟩ => ⟨S100000x40, .f32⟩
  | .hbm, ⟨77, _⟩ => ⟨S1x40, .f32⟩
  | .hbm, ⟨78, _⟩ => ⟨S100000x40, .f32⟩
  | .hbm, ⟨79, _⟩ => ⟨S100000x40, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S100000x1, .f32⟩
  | .hbm, ⟨92, _⟩ => ⟨S100000x1, .f32⟩
  | .hbm, ⟨93, _⟩ => ⟨S100000x40, .f32⟩
  | .hbm, ⟨94, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v60 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«106669_j17695265259896_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.LibLogSoftmax.lean ====
/-
  A row-wise log-softmax at the ideal values, read at an entry given by its coordinates.

  For a finite family `L` of extended reals (one row of logits) put `M = max_q L_q`, the fold of `max` from the value
  the accumulator's pattern denotes. The log-softmax of the row at `c` is `(L_c - M) - log (∑_q exp (L_q - M))`.
  Both spellings below read as this one function of the row:

  * a kernel's: the lane maximum kept as a column and broadcast back, the difference, its exponential, the lane sum
    kept as a column, its logarithm broadcast back, the second difference;
  * the host's (jax.nn.log_softmax over axis 1): a `reduce` by `maximum` from an initial value, the `maximum` of that with
    the same value broadcast (which changes nothing: the fold already dominates the value it starts from), the column
    and its broadcast, the difference, `exponential`, a `reduce` by `add` from zero, the column, `log`, its broadcast, the
    second difference.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«106669_j17695265259896_1_alg».proof.Proof.LibKeepdims
import proofs.«106669_j17695265259896_1_alg».proof.Proof.LibRowOps

noncomputable section

open scoped BigOperators

namespace Cert.LibLogSoftmax

open Idealize.ShloMosaic Idealize.ShloMosaic.ValueIdx

/-! ## The row function -/

/-- The maximum of a row: the fold of `max` over its entries from the value `b`. -/
def rowMax {n : Nat} (b : EReal) (L : Fin n → EReal) : EReal := (Finset.univ : Finset (Fin n)).fold max b L

/-- The log-softmax of a row at entry `c`, the maximum taken from `b`: `(L_c - M) - log (∑_q exp (L_q - M))`. -/
def rowLogSoftmax {n : Nat} (b : EReal) (L : Fin n → EReal) (c : Fin n) : EReal :=
  (L c - rowMax b L) - Ideal.log (∑ q : Fin n, Ideal.exp (L q - rowMax b L))

/-- The fold of `max` dominates the value it starts from, so taking the maximum with that value again changes nothing. -/
theorem max_rowMax {n : Nat} (b : EReal) (L : Fin n → EReal) : max b (rowMax b L) = rowMax b L :=
  max_eq_right ((Finset.le_fold_max b).2 (Or.inl le_rfl))

/-! ## The exponential and the logarithm read at an index -/

variable {s : Shape} {φ : FTy}

theorem exp_apply (x : FVec Ideal s φ) (i : s.Idx) : exp x i = Ideal.exp (x i) := rfl
theorem log_apply (x : FVec Ideal s φ) (i : s.Idx) : log x i = Ideal.log (x i) := rfl
theorem hostExp_apply (x : FVec Ideal s φ) (i : s.Idx) : Host.exp x i = Ideal.exp (x i) := rfl
theorem hostLog_apply (x : FVec Ideal s φ) (i : s.Idx) : Host.log x i = Ideal.log (x i) := rfl

/-! ## Maxima along the rows, and the host's column broadcasts -/

/-- A kernel's lane maximum over axis 1 of `[m, n]`, at row `r`: the row's maximum from the accumulator's value. -/
theorem kernel_rowmax_apply {m n : Nat} (v : FVec Ideal ⟨2, ![m, n]⟩ .f32) (acc : BitVec FTy.f32.bits)
    (h : (⟨2, ![m, n]⟩ : Shape).Reduces [1] ⟨1, ![m]⟩) (hφ : FKind.Formats .f32)
    (hacc : acc = FKind.maximumf.neutral .f32 hφ) (r : Fin m) :
    multiReduction .maximumf [1] ⟨1, ![m]⟩ v acc h hφ hacc (ix1 r) = rowMax (Ideal.ofBits .f32 acc) fun q => v (ix2 r q) := by
  refine (Ideal.multiReduction_maximumf_single v acc h hφ hacc (ix1 r)).trans ?_
  refine congrArg (Finset.univ.fold max (Ideal.ofBits .f32 acc)) (funext fun q => congrArg v (funext fun a => Fin.ext ?_))
  match a with
  | ⟨0, _⟩ => rfl
  | ⟨1, _⟩ => rfl

/-- The host's `reduce` by `maximum` over axis 1 of `[m, n]` from a scalar initial value, at row `r`. -/
theorem host_rowmax_apply {m n : Nat} (v : FVec Ideal ⟨2, ![m, n]⟩ .f32) (init : FVec Ideal ⟨0, ![]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (r : Fin m) :
    Host.reduce (FloatOps.maximumf (F := Ideal) (φ := .f32)) v init h' hu (ix1 r) = rowMax (init ix0) fun q => v (ix2 r q) := by
  refine (Host.reduce_eq_fold_single (FloatOps.maximumf (F := Ideal) (φ := .f32)) v init h' h hu (ix1 r)).trans ?_
  rw [eq_ix0 (Shape.Idx.first hu)]
  refine congrArg (Finset.univ.fold max (init ix0)) (funext fun q => congrArg v (funext fun a => Fin.ext ?_))
  match a with
  | ⟨0, _⟩ => rfl
  | ⟨1, _⟩ => rfl

/-- The host's broadcast of `[a]` to the column `[a, 1]` reads, at `(i, u)`, the operand at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's broadcast of a column `[a, 1]` to `[a, b]` reads, at `(p, c)`, the column's entry of row `p`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A kernel's spelling -/

/-- A kernel's shifted logits: the logits minus their lane maximum, kept as a column and broadcast back. -/
abbrev kernelShift {m n : Nat} (L : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec FTy.f32.bits) = FKind.maximumf.neutral .f32 hφ) : FVec Ideal ⟨2, ![m, n]⟩ .f32 :=
  subf L (broadcastTo ⟨2, ![m, n]⟩ (shapeCast ⟨2, ![m, 1]⟩ (multiReduction .maximumf [1] ⟨1, ![m]⟩ L 0xFF800000#32 hr hφ hmax) hc) hb)

/-- A kernel's row-wise log-softmax of `[m, n]` logits at entry `(r, c)`. -/
theorem kernel_apply {m n : Nat} (L : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin m) (c : Fin n) :
    subf (kernelShift L hr hc hb hφ hmax)
        (broadcastTo ⟨2, ![m, n]⟩ (log (shapeCast ⟨2, ![m, 1]⟩ (multiReduction .add [1] ⟨1, ![m]⟩
          (exp (kernelShift L hr hc hb hφ hmax)) 0x00000000#32 hr hφ hadd) hc)) hb) (ix2 r c)
      = rowLogSoftmax (Ideal.ofBits .f32 0xFF800000#32) (fun q => L (ix2 r q)) c := by
  have hsh : ∀ q : Fin n, kernelShift L hr hc hb hφ hmax (ix2 r q)
      = L (ix2 r q) - rowMax (Ideal.ofBits .f32 0xFF800000#32) fun q => L (ix2 r q) := fun q => by
    unfold kernelShift
    rw [subf_apply, Keepdims.broadcastTo_a1_ab_apply, Keepdims.shapeCast_a_a1_apply, kernel_rowmax_apply]
  have hsum : (∑ q : Fin n, exp (kernelShift L hr hc hb hφ hmax) (ix2 r q))
      = ∑ q : Fin n, Ideal.exp (L (ix2 r q) - rowMax (Ideal.ofBits .f32 0xFF800000#32) fun q => L (ix2 r q)) :=
    Finset.sum_congr rfl fun q _ => by rw [exp_apply, hsh q]
  rw [subf_apply, hsh c, Keepdims.broadcastTo_a1_ab_apply, log_apply, Keepdims.shapeCast_a_a1_apply,
    LibRowOps.kernel_rowsum_apply, hsum]
  rfl

/-! ## The host's spelling -/

/-- The host's shifted logits: the logits minus the column of their row maxima, broadcast back. -/
abbrev hostShift {m n : Nat} (L : FVec Ideal ⟨2, ![m, n]⟩ .f32) (b : BitVec FTy.f32.bits)
    (h' : (⟨2, ![m, n]⟩ : Shape).ReducesTo [1] ⟨1, ![m]⟩) (hu : 0 < (⟨0, ![]⟩ : Shape).numel)
    (h0 : (⟨0, ![]⟩ : Shape).BroadcastsInDim ⟨1, ![m]⟩ (![] : Fin 0 → Fin 1))
    (h1 : (⟨1, ![m]⟩ : Shape).BroadcastsInDim ⟨2, ![m, 1]⟩ ![0])
    (h2 : (⟨2, ![m, 1]⟩ : Shape).BroadcastsInDim ⟨2, ![m, n]⟩ ![0, 1]) : FVec Ideal ⟨2, ![m, n]⟩ .f32 :=
  subf L (broadcastInDim ⟨2, ![m, n]⟩ ![0, 1] h2 (broadcastInDim ⟨2, ![m, 1]⟩ ![0] h1
    (maximumf (broadcastInDim ⟨1, ![m]⟩ ![] h0 (constant (F := Ideal) ⟨0, ![]⟩ .f32 b))
      (Host.reduce (FloatOps.maximumf (F := Ideal) (φ := .f32)) L (constant (F := Ideal) ⟨0, ![]⟩ .f32 b) h' hu))))

/-- The host's row-wise log-softmax of `[m, n]` logits at entry `(r, c)`. -/
theorem host_apply {m n : Nat} (L : FVec Ideal ⟨2, ![m, n]⟩ .f32) (b : BitVec FTy.f32.bits)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel)
    (h0 : (⟨0, ![]⟩ : Shape).BroadcastsInDim ⟨1, ![m]⟩ (![] : Fin 0 → Fin 1))
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (c : Fin n) :
    subf (hostShift L b h' hu h0 h1 h2)
        (broadcastInDim ⟨2, ![m, n]⟩ ![0, 1] h2 (Host.log (broadcastInDim ⟨2, ![m, 1]⟩ ![0] h1
          (Host.reduceAdd (Host.exp (hostShift L b h' hu h0 h1 h2))
            (constant (F := Ideal) ⟨0, ![]⟩ .f32 0x00000000#32) h' hu)))) (ix2 r c)
      = rowLogSoftmax (Ideal.ofBits .f32 b) (fun q => L (ix2 r q)) c := by
  have hsh : ∀ q : Fin n, hostShift L b h' hu h0 h1 h2 (ix2 r q)
      = L (ix2 r q) - rowMax (Ideal.ofBits .f32 b) fun q => L (ix2 r q) := fun q => by
    unfold hostShift
    rw [subf_apply, broadcastInDim_a1_ab_apply, broadcastInDim_a_a1_apply, maximumf_apply, broadcastInDim_scalar_apply,
      host_rowmax_apply L _ h' h hu r, constant_apply, max_rowMax]
  have hsum : (∑ q : Fin n, Host.exp (hostShift L b h' hu h0 h1 h2) (ix2 r q))
      = ∑ q : Fin n, Ideal.exp (L (ix2 r q) - rowMax (Ideal.ofBits .f32 b) fun q => L (ix2 r q)) :=
    Finset.sum_congr rfl fun q _ => by rw [hostExp_apply, hsh q]
  rw [subf_apply, hsh c, broadcastInDim_a1_ab_apply, hostLog_apply, broadcastInDim_a_a1_apply,
    LibRowOps.host_rowsum_apply _ _ h' h hu r, hsum, constant_apply, Ideal.ofBits_zero_f32, zero_add]
  rfl

end Cert.LibLogSoftmax

end
-- ==== Proof.Spec.lean ====
/-
  The head of the network at the ideal values: a dense layer followed by a row-wise log-softmax.

  For features `X` of shape [100000, 64], weights `W` of shape [40, 64] and a bias `b` of 40 entries, row `r`'s logits
  are `ℓ_c = ∑_k X_{r,k} · W_{c,k} + b_c` (the features times the transposed weights, plus the bias), and the result at
  `(r, c)` is `(ℓ_c - M) - log (∑_q exp (ℓ_q - M))` with `M = max_q ℓ_q`, the maximum taken from the value of the f32
  pattern of `-∞`. An entry depends on one row of the features only.
-/
import Idealize.ShloMosaic.Lib.ValueIdx
import Idealize.ShloMosaic.PureOps.Ideal
import proofs.«106669_j17695265259896_1_alg».proof.Proof.LibLogSoftmax

noncomputable section

open scoped BigOperators

namespace Cert.DenseLogSoftmax

open Idealize.ShloMosaic Idealize.ShloMosaic.ValueIdx

/-- The value the maxima start from: what the f32 pattern of `-∞` denotes. -/
abbrev negInf : EReal := Ideal.ofBits .f32 0xFF800000#32

/-- The logits of one row `x` of features: `ℓ_c = ∑_k x_k · W_{c,k} + b_c`. -/
def rowLogits (W : (⟨2, ![40, 64]⟩ : Shape).Idx → EReal) (b : (⟨1, ![40]⟩ : Shape).Idx → EReal) (x : Fin 64 → EReal) :
    Fin 40 → EReal :=
  fun c => (∑ k : Fin 64, x k * W (ix2 c k)) + b (ix1 c)

/-- The result: at `(r, c)` the log-softmax, at `c`, of the logits of row `r` of the features. -/
def head (X : (⟨2, ![100000, 64]⟩ : Shape).Idx → EReal) (W : (⟨2, ![40, 64]⟩ : Shape).Idx → EReal)
    (b : (⟨1, ![40]⟩ : Shape).Idx → EReal) : (⟨2, ![100000, 40]⟩ : Shape).Idx → EReal :=
  fun i => LibLogSoftmax.rowLogSoftmax negInf (rowLogits W b fun k => X (ix2 (i 0) k)) (i 1)

theorem head_apply (X : (⟨2, ![100000, 64]⟩ : Shape).Idx → EReal) (W : (⟨2, ![40, 64]⟩ : Shape).Idx → EReal)
    (b : (⟨1, ![40]⟩ : Shape).Idx → EReal) (r : Fin 100000) (c : Fin 40) :
    head X W b (ix2 r c) = LibLogSoftmax.rowLogSoftmax negInf (rowLogits W b fun k => X (ix2 r k)) c := rfl

end Cert.DenseLogSoftmax

end
-- ==== Proof.KernelBlock.lean ====
/-
  What the kernel's body stores, entry by entry, at the ideal values: with `x` the body's block of 5000 feature rows, `w`
  the weights and `b` the bias as loaded, the stored value at `(p, q)` is the log-softmax, at `q`, of the logits of row
  `p` of the block. The rounding to bf16 on the way into the matrix product is the identity here, and the weights are
  transposed inside the body, so the product's entry `(p, c)` is `∑_k x_{p,k} · w_{c,k}`.
-/
import proofs.«106669_j17695265259896_1_alg».proof.Proof.Gen.KernelIdeal.Skeleton
import proofs.«106669_j17695265259896_1_alg».proof.Proof.LibLogSoftmax
import proofs.«106669_j17695265259896_1_alg».proof.Proof.LibRowOps
import proofs.«106669_j17695265259896_1_alg».proof.Proof.Spec
import Idealize.ShloMosaic.Lib.ValueLayout

noncomputable section

open scoped BigOperators

namespace Cert.KernelIdeal.Block

open Cert.KernelIdeal Cert.KernelIdeal.Gen Idealize.ShloMosaic Idealize.ShloMosaic.ValueIdx Cert.DenseLogSoftmax

/-- The stored value at `(p, q)`: the log-softmax at `q` of the logits of row `p` of the loaded block. -/
theorem payload_apply (v0 : Vec Ideal S5000x64 .f32) (v3 : Vec Ideal S40x64 .f32) (v7 : Vec Ideal S40 .f32)
    (p : Fin 5000) (q : Fin 40) :
    k0_pay1 (F := Ideal) v0 v3 v7 (ix2 p q)
      = LibLogSoftmax.rowLogSoftmax negInf (rowLogits v3 v7 fun k => v0 (ix2 p k)) q := by
  unfold k0_pay1
  refine (LibLogSoftmax.kernel_apply _ _ _ _ (.inl rfl) rfl rfl p q).trans ?_
  refine congrArg (fun L => LibLogSoftmax.rowLogSoftmax negInf L q) (funext fun c => ?_)
  refine (LibRowOps.kernel_affine_apply dot_S5000x64_S64x40_S5000x40_1_0_0_1_n_n rfl none _ _ v7 _ _ p c).trans ?_
  refine congrArg (· + v7 (ix1 c)) (Finset.sum_congr rfl fun k _ => ?_)
  rw [truncf_apply, shapeCast_self, transpose_ix2_apply, truncf_apply]

end Cert.KernelIdeal.Block

end
-- ==== Proof.KernelValue.lean ====
/-
  The kernel's result array as one function of the arrays the region finds. The grid has 20 points; point `t` reads rows
  `5000·t … 5000·t + 4999` of the propagated features, all of the weights and the bias, and writes rows
  `5000·t … 5000·t + 4999` of the result. An entry of the result depends on one row of the features, so what point `t`
  writes is block `t` of the head function of the whole arrays, and the 20 blocks cover the result. The block facts are
  stated for arbitrary arrays: nothing here depends on how the region's arrays were computed.
-/
import proofs.«106669_j17695265259896_1_alg».proof.Proof.Gen.KernelIdeal.Value
import proofs.«106669_j17695265259896_1_alg».proof.Proof.KernelBlock
import proofs.«106669_j17695265259896_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Value Cert.DenseLogSoftmax

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the features' and the result's block index at point `t` is `(t, 0)`,
    the weights' and the bias's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-! ## The input windows' blocks of arbitrary arrays -/

/-- The first window's block at point `t`, at `(p, k)`, is the array's entry `(5000·t + p, k)`. -/
theorem features_block (A : S100000x64.Idx → EReal) (t : Fin cfg0.N) (p : Fin 5000) (k : Fin 64) (r : Fin 100000)
    (hr : r.val = 5000 * t.val + p.val) :
    (((cfg0.win 0).blk t).view.read (Elt Ideal) A : Vec Ideal S5000x64 .f32) (ix2 p k) = A (ix2 r k) := by
  obtain ⟨e0, e1, -⟩ := idx_facts t
  rw [View.read_apply]
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The second window's block at every point is the whole array. -/
theorem weights_block (A : S40x64.Idx → EReal) (t : Fin cfg0.N) :
    (((cfg0.win 1).blk t).view.read (Elt Ideal) A : Vec Ideal S40x64 .f32) = A := by
  obtain ⟨-, -, e2, e3, -⟩ := idx_facts t
  funext j
  rw [View.read_apply]
  refine congrArg A (funext fun a => Fin.ext ?_)
  match a with
  | ⟨0, _⟩ => show win0_1.index t (0 : Fin 2) * 40 + 1 * (j 0).val = (j 0).val; rw [e2]; omega
  | ⟨1, _⟩ => show win0_1.index t (1 : Fin 2) * 64 + 1 * (j 1).val = (j 1).val; rw [e3]; omega

/-- The third window's block at every point is the whole array. -/
theorem bias_block (A : S40.Idx → EReal) (t : Fin cfg0.N) :
    (((cfg0.win 2).blk t).view.read (Elt Ideal) A : Vec Ideal S40 .f32) = A := by
  obtain ⟨-, -, -, -, e4, -⟩ := idx_facts t
  funext j
  rw [View.read_apply]
  refine congrArg A (funext fun a => Fin.ext ?_)
  match a with
  | ⟨0, _⟩ => show win0_2.index t (0 : Fin 1) * 40 + 1 * (j 0).val = (j 0).val; rw [e4]; omega

/-! ## What a point writes -/

/-- The body's result on the blocks at point `t` of three arrays is block `t` of their head function. -/
theorem block_eq (A0 : S100000x64.Idx → EReal) (A1 : S40x64.Idx → EReal) (A2 : S40.Idx → EReal) (t : Fin cfg0.N) :
    (cfg0.win 3).cut (grid0.coords t) (out0_3 (F := Ideal) (((cfg0.win 0).blk t).view.read (Elt Ideal) A0)
        (((cfg0.win 1).blk t).view.read (Elt Ideal) A1) (((cfg0.win 2).blk t).view.read (Elt Ideal) A2))
      = ((cfg0.win 3).blk t).view.read (Elt Ideal) (head A0 A1 A2) := by
  unfold out0_3
  rw [View.canon_unit_zero hz2]
  simp only [View.ld_unit_zero (S := S5000x64) hz2, View.ld_unit_zero (S := S40x64) hz2, View.ld_unit_zero (S := S40) hz1]
  obtain ⟨-, -, -, -, -, e5, e6⟩ := idx_facts t
  have hN : cfg0.N = 20 := N_0
  have ht : t.val < 20 := hN ▸ t.isLt
  funext j
  obtain ⟨p, q, rfl⟩ : ∃ (p : Fin 5000) (q : Fin 40), j = ix2 p q := ⟨j 0, j 1, eq_ix2 j⟩
  have hemb : ((cfg0.win 3).blk t).view.emb (ix2 p q) = (ix2 (⟨5000 * t.val + p.val, by omega⟩ : Fin 100000) q : S100000x40.Idx) := by
    funext a; apply Fin.ext
    match a with
    | ⟨0, _⟩ => show win0_3.index t (0 : Fin 2) * 5000 + 1 * p.val = 5000 * t.val + p.val; rw [e5]; omega
    | ⟨1, _⟩ => show win0_3.index t (1 : Fin 2) * 40 + 1 * q.val = q.val; rw [e6]; omega
  show k0_pay1 (F := Ideal) (((cfg0.win 0).blk t).view.read (Elt Ideal) A0) (((cfg0.win 1).blk t).view.read (Elt Ideal) A1)
      (((cfg0.win 2).blk t).view.read (Elt Ideal) A2) (ix2 p q) = head A0 A1 A2 (((cfg0.win 3).blk t).view.emb (ix2 p q))
  rw [hemb, head_apply]
  refine (Block.payload_apply _ _ _ p q).trans ?_
  rw [weights_block A1 t, bias_block A2 t]
  refine congrArg (fun x => LibLogSoftmax.rowLogSoftmax negInf (rowLogits A1 A2 x) q) (funext fun k => ?_)
  exact features_block A0 t p k _ rfl

/-- An index of the result is in point `t`'s block iff each coordinate is in the block's range on its axis. -/
theorem mem_blk (t : Fin cfg0.N) (i : S100000x40.Idx) :
    i ∈ ((cfg0.win 3).blk t).view.set ↔ ∀ a : Fin 2, win0_3.index t a * S5000x40.size a ≤ (i a).val ∧ (i a).val < win0_3.index t a * S5000x40.size a + S5000x40.size a := by
  show i ∈ ((View.whole main_v55).slice (win0_3.rect t)).set ↔ _
  rw [View.set_slice_whole, Rect.mem_set_unit]
  exact Iff.rfl

/-- Row `r` of the result is in the block of point `r / 5000`. -/
theorem cover (i : S100000x40.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 40 := (i 1).isLt
  have ht : (i 0).val / 5000 < cfg0.N := by rw [hN]; omega
  obtain ⟨-, -, -, -, -, e5, e6⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win0_3.index ⟨(i 0).val / 5000, ht⟩ (1 : Fin 2) * 40 ≤ (i 1).val ∧ (i 1).val < win0_3.index ⟨(i 0).val / 5000, ht⟩ (1 : Fin 2) * 40 + 40
    rw [e6]
    omega

/-! ## The run -/

variable (m : (ℓ : Loc nD τ sig) → Buf (Elt Ideal) ℓ) (ρ : Dev nD → PrngReg)

/-- The result as the kernel leaves it: the head function of the three arrays the region's input windows stage. -/
abbrev result (c : Dev nD) : S100000x40.Idx → EReal :=
  head (V m c (Pipeline.arrRef spec0 0)) (V m c (Pipeline.arrRef spec0 1)) (V m c (Pipeline.arrRef spec0 2))

/-- What point `t` writes back is block `t` of the head function. -/
theorem flushed_eq (c : Dev nD) (t : Fin cfg0.N) :
    (dats m 0 c).flushed 3 t = ((cfg0.win 3).blk t).view.read (Elt Ideal) (result m c) := by
  rw [Value.flushed3]
  exact block_eq _ _ _ t

/-- So the result array ends holding the head function of the arrays the region finds. -/
theorem final (c : Dev nD) : (dats m 0 c).arrAt 3 cfg0.N = result m c :=
  (dats m 0 c).arrAt_eq_of_cover 3 (result m c) (fun t _ => flushed_eq m c t) cover

/-- The run, read: the result array at the head function, the arguments unchanged. -/
theorem run : θ_run defs (onTc (τ := τ) (main (F := Ideal))) ⟨m, fun _ => 0, ρ⟩ fun r => ∀ c : Dev nD,
      r.2.mem ((c : Thread nD τ).loc main_v55) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Rows

end
-- ==== Proof.Propagate.lean ====
/-
  The host operations both programs apply before the dense head, as functions of their operands: the graph
  propagation `x ↦ D^{-1/2} (A + I) D^{-1/2} x`, twice, over an edge list with self-loops appended.

  From the edge list `e` of shape [2, 1600000]: the sources `row = e[0] ++ [0 … 99999]` and the targets
  `col = e[1] ++ [0 … 99999]`; the degree of a node, the scatter-add of ones at `col`; `dinv = rsqrt(deg)` where the
  degree is positive, zero elsewhere. Per edge the weight `dinv[row] · dinv[col]` (an index below zero is first moved up
  by 100000, as jnp indexing does); one propagation step scatter-adds `weight · x[row]` at `col`.
  Nothing here is evaluated: the functions are names for the terms the two programs share.
-/
import proofs.«106669_j17695265259896_1_alg».proof.Proof.Gen.KernelIdeal

noncomputable section

namespace Cert.KernelIdeal.Propagate

open Cert.KernelIdeal Cert.KernelIdeal.Gen Idealize.ShloMosaic

variable {F : FTy → Type} [FloatOps F]

/-- A two-operand concatenation with its operands as plain arguments. -/
def concat2 {α : Type} (S : Shape) (d : Fin S.rank) (s1 s2 : Shape) (h : Shape.Concatenates [s1, s2] S d)
    (a : s1.Idx → α) (b : s2.Idx → α) : S.Idx → α := concatenate S d [⟨s1, a⟩, ⟨s2, b⟩] h

theorem concat2_fun_eq {α : Type} (S : Shape) (d : Fin S.rank) (s1 s2 : Shape) (h : Shape.Concatenates [s1, s2] S d) :
    (fun (a : s1.Idx → α) (b : s2.Idx → α) => concatenate S d [⟨s1, a⟩, ⟨s2, b⟩] h) = concat2 S d s1 s2 h := rfl

/-- Row `k` of the edge list followed by the self-loops `0 … 99999`. -/
def endpoints (k : Nat) (hs : S2x1600000.Slices ![k, 0] S1x1600000) (e : IVec S2x1600000 32) : IVec S1700000 32 :=
  concat2 S1700000 0 S1600000 S100000 concatenates_S1600000_S100000_S1700000_d0
    (shapeCast S1600000 (extractStridedSlice S1x1600000 ![k, 0] e hs) shapeCasts_S1x1600000_S1600000)
    (iotaInDim S100000 32 0)

/-- The sources: `e[0]` and the self-loops. -/
def sources (e : IVec S2x1600000 32) : IVec S1700000 32 := endpoints 0 slices_S2x1600000_S1x1600000_0_0 e
/-- The targets: `e[1]` and the self-loops. -/
def targets (e : IVec S2x1600000 32) : IVec S1700000 32 := endpoints 1 slices_S2x1600000_S1x1600000_1_0 e

/-- A vector over the edges as a column. -/
def column {α : Type} (v : S1700000.Idx → α) : S1700000x1.Idx → α :=
  broadcastInDim S1700000x1 ![0] bcast_S1700000_S1700000x1_0 v

/-- The degree of each node: ones scatter-added at the targets. -/
def degree (col : IVec S1700000 32) : FVec F S100000 .f32 :=
  Host.scatterAdd scatter_S100000_S1700000x1_S1700000_n_0_0_1
    (broadcastInDim S100000 ![] bcast_S_S100000 (constant S_ .f32 0x00000000#32)) (column col)
    (broadcastInDim S1700000 ![] bcast_S_S1700000 (constant S_ .f32 0x3F800000#32))

/-- Where a vector over the nodes is positive. -/
def positive (d : FVec F S100000 .f32) : IVec S100000 1 :=
  cmpf (F := F) .ogt d (broadcastInDim S100000 ![] bcast_S_S100000 (constant S_ .f32 0x00000000#32))

/-- `jnp.where(p, r, z)` over the nodes with a scalar `z`. -/
def whereNodes (p : IVec S100000 1) (r : FVec F S100000 .f32) (z : FVec F S_ .f32) : FVec F S100000 .f32 :=
  select p r (broadcastInDim S100000 ![] bcast_S_S100000 (id z))

/-- `dinv`: the reciprocal square root of the degrees where positive, else zero. -/
def dinv (col : IVec S1700000 32) : FVec F S100000 .f32 :=
  whereNodes (positive (F := F) (degree col)) (Host.rsqrt (degree col)) (constant S_ .f32 0x00000000#32)

/-- jnp's indexing of a length-100000 axis: an index below zero is moved up by 100000. -/
def wrapIdx (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- The edge weights `dinv[row] · dinv[col]`, as a column. -/
def edgeWeight (row col : IVec S1700000 32) (d : FVec F S100000 .f32) : FVec F S1700000x1 .f32 :=
  column (mulf (Host.gather gather_S100000_S1700000x1_S1700000_n_0_n_n_0_1_1 d (column (wrapIdx row)))
    (Host.gather gather_S100000_S1700000x1_S1700000_n_0_n_n_0_1_1 d (column (wrapIdx col))))

/-- One propagation step: `weight · x[row]` scatter-added at `col`. -/
def hop (row col : IVec S1700000 32) (w : FVec F S1700000x1 .f32) (x : FVec F S100000x64 .f32) : FVec F S100000x64 .f32 :=
  Host.scatterAdd scatter_S100000x64_S1700000x1_S1700000x64_1_0_0_1
    (broadcastInDim S100000x64 ![] bcast_S_S100000x64 (constant S_ .f32 0x00000000#32)) (column col)
    (mulf (broadcastInDim S1700000x64 ![0, 1] bcast_S1700000x1_S1700000x64_0_1 w)
      (Host.gather gather_S100000x64_S1700000x1_S1700000x64_1_0_n_n_0_1_164 x (column (wrapIdx row))))

/-- Two propagation steps with the same weights. -/
def hops (row col : IVec S1700000 32) (d : FVec F S100000 .f32) (x : FVec F S100000x64 .f32) : FVec F S100000x64 .f32 :=
  hop row col (edgeWeight row col d) (hop row col (edgeWeight row col d) x)

/-- The propagated features, of the features and the edge list. -/
def features (x : FVec F S100000x64 .f32) (e : IVec S2x1600000 32) : FVec F S100000x64 .f32 :=
  hops (sources e) (targets e) (dinv (F := F) (targets e)) x

end Cert.KernelIdeal.Propagate

end
-- ==== Proof.LibAfterAppend.lean ====
/-
  A general fact about a straight line of host operations: running one list of operations and then another leaves
  every buffer holding what running their concatenation leaves. It lets a long line be read stretch by stretch, the
  contents after an earlier stretch standing as a name while a later stretch is computed.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.LibAfterAppend
-- ==== Proof.KernelHost.lean ====
/-
  The array the kernel's region finds in its first window. The seventy-one host operations before the region are read
  in three stretches, the contents after an earlier stretch standing as a name while a later one is computed: the first
  eighteen operations leave the sources and the targets of the edge list and the degrees' sign and reciprocal square
  root; the three of `jnp.where` select between that root and zero (`dinv`); the last fifty, from ANY contents, leave
  two propagation steps of the features over the sources, targets and `dinv` they find. So the window's array is the
  propagated features of Propagate.lean, of the two argument arrays.
-/
import proofs.«106669_j17695265259896_1_alg».proof.Proof.Gen.KernelIdeal.Frame
import proofs.«106669_j17695265259896_1_alg».proof.Proof.Propagate
import proofs.«106669_j17695265259896_1_alg».proof.Proof.LibAfterAppend
import Idealize.ShloMosaic.Lib.StableHlo.Run
import Idealize.ShloMosaic.Lib.Pipeline.Regions
import Idealize.ShloMosaic.PureOps.Ideal

noncomputable section

namespace Cert.KernelIdeal.HostSide

open Cert.KernelIdeal Cert.KernelIdeal.Gen Cert.KernelIdeal.Propagate
open Idealize.ShloMosaic Idealize.ShloMosaic.TcCoe Idealize.SL.Sem Idealize.ShloMosaic.StableHlo

set_option maxRecDepth 65536 in
set_option maxHeartbeats 4000000 in
/-- After the first eighteen operations: the sources, the targets, where the degrees are positive, their reciprocal
    square root and the scalar zero; the features untouched. -/
theorem first_stretch (W : Valuation τ sig (Elt Ideal)) :
    after hostOps0 W (Proc.devRef .tc main_v3) = sources (W (Proc.devRef .tc main_arg1))
    ∧ after hostOps0 W (Proc.devRef .tc main_v6) = targets (W (Proc.devRef .tc main_arg1))
    ∧ after hostOps0 W (Proc.devRef .tc main_v12) = positive (F := Ideal) (degree (targets (W (Proc.devRef .tc main_arg1))))
    ∧ after hostOps0 W (Proc.devRef .tc main_v13) = Host.rsqrt (degree (F := Ideal) (targets (W (Proc.devRef .tc main_arg1))))
    ∧ after hostOps0 W (Proc.devRef .tc main_cst_2) = constant (F := Ideal) S_ .f32 0x00000000#32
    ∧ after hostOps0 W (Proc.devRef .tc main_arg0) = W (Proc.devRef .tc main_arg0) := by
  refine ⟨?_, ?_, ?_, ?_, ?_, ?_⟩ <;>
    (simp (disch := decide) only [hostOps0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fun_eq]
     first | done | chain_rfl)

set_option maxRecDepth 65536 in
set_option maxHeartbeats 4000000 in
/-- The three operations of `jnp.where`, from any contents: the selection; the sources, targets and features untouched. -/
theorem where_stretch (W : Valuation τ sig (Elt Ideal)) :
    after hostOps0_1 W (Proc.devRef .tc main_v14)
      = whereNodes (F := Ideal) (W (Proc.devRef .tc main_v12)) (W (Proc.devRef .tc main_v13)) (W (Proc.devRef .tc main_cst_2))
    ∧ after hostOps0_1 W (Proc.devRef .tc main_v3) = W (Proc.devRef .tc main_v3)
    ∧ after hostOps0_1 W (Proc.devRef .tc main_v6) = W (Proc.devRef .tc main_v6)
    ∧ after hostOps0_1 W (Proc.devRef .tc main_arg0) = W (Proc.devRef .tc main_arg0) := by
  refine ⟨?_, ?_, ?_, ?_⟩ <;>
    (simp (disch := decide) only [hostOps0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
     first | done | chain_rfl)

set_option maxRecDepth 65536 in
set_option maxHeartbeats 4000000 in
/-- The last fifty operations, from any contents: two propagation steps over the sources, targets and `dinv` found. -/
theorem second_stretch (W : Valuation τ sig (Elt Ideal)) :
    after hostOps0_2 W (Proc.devRef .tc main_v54)
      = hops (F := Ideal) (W (Proc.devRef .tc main_v3)) (W (Proc.devRef .tc main_v6)) (W (Proc.devRef .tc main_v14))
          (W (Proc.devRef .tc main_arg0)) := by
  simp (disch := decide) only [hostOps0_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  chain_rfl

/-- The first window's array as the region finds it: the propagated features of the two argument arrays. -/
theorem features_eq (m : (ℓ : Loc nD τ sig) → Buf (Elt Ideal) ℓ) (c : Dev nD) :
    V m c main_v54 = features (F := Ideal) (m ((c : Thread nD τ).loc main_arg0)) (m ((c : Thread nD τ).loc main_arg1)) := by
  have hflat : List.flatten [hostOps0 (F := Ideal), hostOps0_1, hostOps0_2] = hostOps0 ++ (hostOps0_1 ++ hostOps0_2) := by
    simp only [List.flatten_cons, List.flatten_nil, List.append_nil]
  show after (List.flatten [hostOps0, hostOps0_1, hostOps0_2]) (fun b => m (c, b)) (Proc.devRef .tc main_v54) = _
  rw [hflat, LibAfterAppend.after_append, LibAfterAppend.after_append, second_stretch]
  obtain ⟨w14, w3, w6, w0⟩ := where_stretch (after hostOps0 (fun b => m (c, b)))
  obtain ⟨h3, h6, h12, h13, hz, h0⟩ := first_stretch (fun b => m (c, b))
  rw [w14, w3, w6, w0, h3, h6, h12, h13, hz, h0]
  chain_rfl

end Cert.KernelIdeal.HostSide

end
-- ==== Proof.RefOps.lean ====
/-
  The reference's @main as a straight line of its 91 host operations, in five stretches: the first eighteen
  (the sources and targets of the edge list with self-loops, the degrees, their sign and reciprocal square root), the
  three of `jnp.where` (`dinv`), the next fifty (the edge weights and two propagation steps), the dense layer's five
  (the transposed weights, the product, the bias), and jax.nn.log_softmax's fifteen, a called function's operations
  standing in its call's place. Every weakly fair execution terminates
  with each buffer at the fold of the operations' results over the launch contents.
-/
import proofs.«106669_j17695265259896_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first eighteen operations: the sources, the targets, the degrees' sign and reciprocal square root (`%0` … `%cst_2`). -/
abbrev opsA1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The three operations of `jnp.where` (`%14`). -/
abbrev opsA2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The next fifty: the edge weights and the two propagation steps (`%15` … `%54`). -/
abbrev opsB : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_arg0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v37 main_v39 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_9 (constantI S_ 32 0#32),
    unary main_c_9 main_v43 (broadcastInDim S1700000 ![] bcast_S_S1700000 : (⟨S_, .i32⟩ : BufTy).Contents (Elt F) → (⟨S1700000, .i32⟩ : BufTy).Contents (Elt F)),
    binary main_v3 main_v43 main_v44 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v45 (broadcastInDim S1700000 ![] bcast_S_S1700000 : (⟨S_, .i32⟩ : BufTy).Contents (Elt F) → (⟨S1700000, .i32⟩ : BufTy).Contents (Elt F)),
    binary main_v3 main_v45 main_v46 (addi : (⟨S1700000, .i32⟩ : BufTy).Contents (Elt F) → (⟨S1700000, .i32⟩ : BufTy).Contents (Elt F) → (⟨S1700000, .i32⟩ : BufTy).Contents (Elt F)),
    ternary main_v44 main_v46 main_v3 main_v47 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v47 main_v48 (broadcastInDim S1700000x1 ![0] bcast_S1700000_S1700000x1_0 : (⟨S1700000, .i32⟩ : BufTy).Contents (Elt F) → (⟨S1700000x1, .i32⟩ : BufTy).Contents (Elt F)),
    binary main_v42 main_v48 main_v49 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v50 (broadcastInDim S1700000x64 ![0, 1] bcast_S1700000x1_S1700000x64_0_1 : (⟨S1700000x1, .f32⟩ : BufTy).Contents (Elt F) → (⟨S1700000x64, .f32⟩ : BufTy).Contents (Elt F)),
    binary main_v50 main_v49 main_v51 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v52 (broadcastInDim S100000x64 ![] bcast_S_S100000x64 : (⟨S_, .f32⟩ : BufTy).Contents (Elt F) → (⟨S100000x64, .f32⟩ : BufTy).Contents (Elt F)),
    unary main_v6 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The dense layer's five operations (`%55` … `%59`). -/
abbrev opsT1 : List (HloOp τ sig (Elt F)) :=
  [ unary main_arg2 main_v55 ((transpose S64x40 [1, 0] · transposes_S40x64_S64x40_1_0) : (⟨S40x64, .f32⟩ : BufTy).Contents (Elt F) → (⟨S64x40, .f32⟩ : BufTy).Contents (Elt F)),
    binary main_v54 main_v55 main_v56 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v57 (broadcastInDim S1x40 ![1] bcast_S40_S1x40_1 : (⟨S40, .f32⟩ : BufTy).Contents (Elt F) → (⟨S1x40, .f32⟩ : BufTy).Contents (Elt F)),
    unary main_v57 main_v58 (broadcastInDim S100000x40 ![0, 1] bcast_S1x40_S100000x40_0_1 : (⟨S1x40, .f32⟩ : BufTy).Contents (Elt F) → (⟨S100000x40, .f32⟩ : BufTy).Contents (Elt F)),
    binary main_v56 main_v58 main_v59 (addf : (⟨S100000x40, .f32⟩ : BufTy).Contents (Elt F) → (⟨S100000x40, .f32⟩ : BufTy).Contents (Elt F) → (⟨S100000x40, .f32⟩ : BufTy).Contents (Elt F)) ]

/-- jax.nn.log_softmax's fifteen operations (`%60`). -/
abbrev opsT2 : List (HloOp τ sig (Elt F)) :=
  [ TRef.nullary (TRef.of (T := ⟨S_, .f32⟩) main_call1_cst) (constant S_ .f32 0xFF800000#32),
    TRef.binary (TRef.of (T := ⟨S100000x40, .f32⟩) main_v59) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v59) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v60) subf ]

/-- @main's 91 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_arg0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v37 main_v39 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_9 (constantI S_ 32 0#32),
    unary main_c_9 main_v43 (broadcastInDim S1700000 ![] bcast_S_S1700000 : (⟨S_, .i32⟩ : BufTy).Contents (Elt F) → (⟨S1700000, .i32⟩ : BufTy).Contents (Elt F)),
    binary main_v3 main_v43 main_v44 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v45 (broadcastInDim S1700000 ![] bcast_S_S1700000 : (⟨S_, .i32⟩ : BufTy).Contents (Elt F) → (⟨S1700000, .i32⟩ : BufTy).Contents (Elt F)),
    binary main_v3 main_v45 main_v46 (addi : (⟨S1700000, .i32⟩ : BufTy).Contents (Elt F) → (⟨S1700000, .i32⟩ : BufTy).Contents (Elt F) → (⟨S1700000, .i32⟩ : BufTy).Contents (Elt F)),
    ternary main_v44 main_v46 main_v3 main_v47 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v47 main_v48 (broadcastInDim S1700000x1 ![0] bcast_S1700000_S1700000x1_0 : (⟨S1700000, .i32⟩ : BufTy).Contents (Elt F) → (⟨S1700000x1, .i32⟩ : BufTy).Contents (Elt F)),
    binary main_v42 main_v48 main_v49 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v50 (broadcastInDim S1700000x64 ![0, 1] bcast_S1700000x1_S1700000x64_0_1 : (⟨S1700000x1, .f32⟩ : BufTy).Contents (Elt F) → (⟨S1700000x64, .f32⟩ : BufTy).Contents (Elt F)),
    binary main_v50 main_v49 main_v51 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v52 (broadcastInDim S100000x64 ![] bcast_S_S100000x64 : (⟨S_, .f32⟩ : BufTy).Contents (Elt F) → (⟨S100000x64, .f32⟩ : BufTy).Contents (Elt F)),
    unary main_v6 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg2 main_v55 ((transpose S64x40 [1, 0] · transposes_S40x64_S64x40_1_0) : (⟨S40x64, .f32⟩ : BufTy).Contents (Elt F) → (⟨S64x40, .f32⟩ : BufTy).Contents (Elt F)),
    binary main_v54 main_v55 main_v56 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v57 (broadcastInDim S1x40 ![1] bcast_S40_S1x40_1 : (⟨S40, .f32⟩ : BufTy).Contents (Elt F) → (⟨S1x40, .f32⟩ : BufTy).Contents (Elt F)),
    unary main_v57 main_v58 (broadcastInDim S100000x40 ![0, 1] bcast_S1x40_S100000x40_0_1 : (⟨S1x40, .f32⟩ : BufTy).Contents (Elt F) → (⟨S100000x40, .f32⟩ : BufTy).Contents (Elt F)),
    binary main_v56 main_v58 main_v59 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v59) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v59) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v60) subf ]

/-- The line is its five stretches one after the other. -/
theorem ops_split : (ops : List (HloOp τ sig (Elt F))) = opsA1 ++ (opsA2 ++ (opsB ++ (opsT1 ++ opsT2))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- Every weakly fair execution of @main terminates with each buffer at the fold of the 91 operations' results over
    what the launch dealt it. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Line

end
-- ==== Proof.RefHost.lean ====
/-
  The reference's first seventy-one operations, read in the same three stretches as the kernel's host side: the first
  eighteen leave the sources and targets of the edge list and the degrees' sign and reciprocal square root; the three
  of `jnp.where` leave `dinv`; the next fifty, from any contents, leave two propagation steps of the features over
  those three. The functions are Propagate.lean's, so the array the dense layer starts from is the same term of the
  two argument arrays as the kernel's first window. The weights and the bias pass through untouched.
-/
import proofs.«106669_j17695265259896_1_alg».proof.Proof.RefOps
import proofs.«106669_j17695265259896_1_alg».proof.Proof.Propagate
import proofs.«106669_j17695265259896_1_alg».proof.Proof.LibAfterAppend
import Idealize.ShloMosaic.Lib.StableHlo.Run
import Idealize.ShloMosaic.Lib.Pipeline.Regions
import Idealize.ShloMosaic.PureOps.Ideal

noncomputable section

namespace Cert.ReferenceIdeal.HostSide

open Cert.ReferenceIdeal Cert.ReferenceIdeal.Gen Cert.ReferenceIdeal.Line Cert.KernelIdeal.Propagate
open Idealize.ShloMosaic Idealize.ShloMosaic.TcCoe Idealize.SL.Sem Idealize.ShloMosaic.StableHlo

set_option maxRecDepth 65536 in
set_option maxHeartbeats 4000000 in
/-- After the first eighteen operations: the sources, the targets, where the degrees are positive, their reciprocal
    square root and the scalar zero; the features, the weights and the bias untouched. -/
theorem first_stretch (W : Valuation τ sig (Elt Ideal)) :
    after opsA1 W (Proc.devRef .tc main_v3) = sources (W (Proc.devRef .tc main_arg1))
    ∧ after opsA1 W (Proc.devRef .tc main_v6) = targets (W (Proc.devRef .tc main_arg1))
    ∧ after opsA1 W (Proc.devRef .tc main_v12) = positive (F := Ideal) (degree (targets (W (Proc.devRef .tc main_arg1))))
    ∧ after opsA1 W (Proc.devRef .tc main_v13) = Host.rsqrt (degree (F := Ideal) (targets (W (Proc.devRef .tc main_arg1))))
    ∧ after opsA1 W (Proc.devRef .tc main_cst_2) = constant (F := Ideal) Cert.KernelIdeal.S_ .f32 0x00000000#32
    ∧ after opsA1 W (Proc.devRef .tc main_arg0) = W (Proc.devRef .tc main_arg0)
    ∧ after opsA1 W (Proc.devRef .tc main_arg2) = W (Proc.devRef .tc main_arg2)
    ∧ after opsA1 W (Proc.devRef .tc main_arg3) = W (Proc.devRef .tc main_arg3) := by
  refine ⟨?_, ?_, ?_, ?_, ?_, ?_, ?_, ?_⟩ <;>
    (simp (disch := decide) only [opsA1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fun_eq]
     first | done | chain_rfl)

set_option maxRecDepth 65536 in
set_option maxHeartbeats 4000000 in
/-- The three operations of `jnp.where`, from any contents: the selection; everything else needed later untouched. -/
theorem where_stretch (W : Valuation τ sig (Elt Ideal)) :
    after opsA2 W (Proc.devRef .tc main_v14)
      = whereNodes (F := Ideal) (W (Proc.devRef .tc main_v12)) (W (Proc.devRef .tc main_v13)) (W (Proc.devRef .tc main_cst_2))
    ∧ after opsA2 W (Proc.devRef .tc main_v3) = W (Proc.devRef .tc main_v3)
    ∧ after opsA2 W (Proc.devRef .tc main_v6) = W (Proc.devRef .tc main_v6)
    ∧ after opsA2 W (Proc.devRef .tc main_arg0) = W (Proc.devRef .tc main_arg0)
    ∧ after opsA2 W (Proc.devRef .tc main_arg2) = W (Proc.devRef .tc main_arg2)
    ∧ after opsA2 W (Proc.devRef .tc main_arg3) = W (Proc.devRef .tc main_arg3) := by
  refine ⟨?_, ?_, ?_, ?_, ?_, ?_⟩ <;>
    (simp (disch := decide) only [opsA2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
     first | done | chain_rfl)

set_option maxRecDepth 65536 in
set_option maxHeartbeats 4000000 in
/-- The next fifty operations, from any contents: two propagation steps over the sources, targets and `dinv` found;
    the weights and the bias untouched. -/
theorem second_stretch (W : Valuation τ sig (Elt Ideal)) :
    after opsB W (Proc.devRef .tc main_v54)
      = hops (F := Ideal) (W (Proc.devRef .tc main_v3)) (W (Proc.devRef .tc main_v6)) (W (Proc.devRef .tc main_v14))
          (W (Proc.devRef .tc main_arg0))
    ∧ after opsB W (Proc.devRef .tc main_arg2) = W (Proc.devRef .tc main_arg2)
    ∧ after opsB W (Proc.devRef .tc main_arg3) = W (Proc.devRef .tc main_arg3) := by
  refine ⟨?_, ?_, ?_⟩ <;>
    (simp (disch := decide) only [opsB, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
     first | done | chain_rfl)

/-- After the first seventy-one operations: the propagated features of the two argument arrays; the weights and the
    bias as launched. -/
theorem prefix_eq (W : Valuation τ sig (Elt Ideal)) :
    after opsB (after opsA2 (after opsA1 W)) (Proc.devRef .tc main_v54)
      = features (F := Ideal) (W (Proc.devRef .tc main_arg0)) (W (Proc.devRef .tc main_arg1))
    ∧ after opsB (after opsA2 (after opsA1 W)) (Proc.devRef .tc main_arg2) = W (Proc.devRef .tc main_arg2)
    ∧ after opsB (after opsA2 (after opsA1 W)) (Proc.devRef .tc main_arg3) = W (Proc.devRef .tc main_arg3) := by
  obtain ⟨hB, hB2, hB3⟩ := second_stretch (after opsA2 (after opsA1 W))
  obtain ⟨w14, w3, w6, w0, w2, w3'⟩ := where_stretch (after opsA1 W)
  obtain ⟨h3, h6, h12, h13, hz, h0, h2, h3'⟩ := first_stretch W
  refine ⟨?_, hB2.trans (w2.trans h2), hB3.trans (w3'.trans h3')⟩
  rw [hB, w14, w3, w6, w0, h3, h6, h12, h13, hz, h0]
  chain_rfl

end Cert.ReferenceIdeal.HostSide

end
-- ==== Proof.RefTail.lean ====
/-
  The reference's last twenty operations, from any contents, in two stretches: the dense layer's five leave the logits
  `X · Wᵀ + b` of the array `X` found in `%54`, the weights `W` and the bias `b` (a `dot_general` with the transposed
  weights, plus the bias broadcast over the rows); jax.nn.log_softmax's fifteen, standing in its call's place, leave
  its operations applied to the logits they find. Read at an entry the two together are the head function of Spec.lean.
-/
import proofs.«106669_j17695265259896_1_alg».proof.Proof.RefOps
import proofs.«106669_j17695265259896_1_alg».proof.Proof.LibLogSoftmax
import proofs.«106669_j17695265259896_1_alg».proof.Proof.LibRowOps
import proofs.«106669_j17695265259896_1_alg».proof.Proof.Spec
import proofs.«106669_j17695265259896_1_alg».proof.Proof.LibAfterAppend
import Idealize.ShloMosaic.Lib.StableHlo.Run
import Idealize.ShloMosaic.Lib.Pipeline.Regions
import Idealize.ShloMosaic.Lib.ValueLayout

noncomputable section

open scoped BigOperators

namespace Cert.ReferenceIdeal.Tail

open Cert.ReferenceIdeal Cert.ReferenceIdeal.Gen Cert.ReferenceIdeal.Line Cert.DenseLogSoftmax
open Idealize.ShloMosaic Idealize.ShloMosaic.TcCoe Idealize.SL.Sem Idealize.ShloMosaic.StableHlo Idealize.ShloMosaic.ValueIdx

/-- The host's logits `X · Wᵀ + b`. -/
def hostLogits (X : FVec Ideal S100000x64 .f32) (Wt : FVec Ideal S40x64 .f32) (b : FVec Ideal S40 .f32) : FVec Ideal S100000x40 .f32 :=
  addf (Host.dotGeneral dot_S100000x64_S64x40_S100000x40_1_0_0_1_n_n none X (transpose S64x40 [1, 0] Wt transposes_S40x64_S64x40_1_0))
    (broadcastInDim S100000x40 ![0, 1] bcast_S1x40_S100000x40_0_1 (broadcastInDim S1x40 ![1] bcast_S40_S1x40_1 b))

/-- jax.nn.log_softmax's operations applied to an array of logits. -/
def hostLogSoftmax (L : FVec Ideal S100000x40 .f32) : FVec Ideal S100000x40 .f32 :=
  subf (LibLogSoftmax.hostShift L 0xFF800000#32 reducesTo_S100000x40_S100000_d1 h_S_ bcast_S_S100000
      bcast_S100000_S100000x1_0 bcast_S100000x1_S100000x40_0_1)
    (broadcastInDim S100000x40 ![0, 1] bcast_S100000x1_S100000x40_0_1 (Host.log (broadcastInDim S100000x1 ![0] bcast_S100000_S100000x1_0
      (Host.reduceAdd (Host.exp (LibLogSoftmax.hostShift L 0xFF800000#32 reducesTo_S100000x40_S100000_d1 h_S_
          bcast_S_S100000 bcast_S100000_S100000x1_0 bcast_S100000x1_S100000x40_0_1))
        (constant (F := Ideal) S_ .f32 0x00000000#32) reducesTo_S100000x40_S100000_d1 h_S_))))

/-- The logits at `(r, q)`: `∑_k X_{r,k} · W_{q,k} + b_q`. -/
theorem hostLogits_apply (X : FVec Ideal S100000x64 .f32) (Wt : FVec Ideal S40x64 .f32) (b : FVec Ideal S40 .f32)
    (r : Fin 100000) (q : Fin 40) :
    hostLogits X Wt b (ix2 r q) = rowLogits Wt b (fun k => X (ix2 r k)) q := by
  unfold hostLogits
  refine (LibRowOps.host_affine_apply dot_S100000x64_S64x40_S100000x40_1_0_0_1_n_n rfl none X
    (transpose S64x40 [1, 0] Wt transposes_S40x64_S64x40_1_0) b _ _ r q).trans ?_
  refine congrArg (· + b (ix1 q)) (Finset.sum_congr rfl fun k _ => ?_)
  rw [transpose_ix2_apply]

/-- The host's log-softmax of the host's logits is the head function. -/
theorem hostHead_eq (X : FVec Ideal S100000x64 .f32) (Wt : FVec Ideal S40x64 .f32) (b : FVec Ideal S40 .f32) :
    hostLogSoftmax (hostLogits X Wt b) = head X Wt b := by
  funext i
  obtain ⟨r, c, rfl⟩ : ∃ (r : Fin 100000) (c : Fin 40), i = ix2 r c := ⟨i 0, i 1, eq_ix2 i⟩
  rw [head_apply]
  unfold hostLogSoftmax
  refine (LibLogSoftmax.host_apply (hostLogits X Wt b) 0xFF800000#32 _ (by decide) _ _ _ _ r c).trans ?_
  exact congrArg (fun L => LibLogSoftmax.rowLogSoftmax negInf L c) (funext fun q => hostLogits_apply X Wt b r q)

set_option maxRecDepth 65536 in
set_option maxHeartbeats 4000000 in
/-- The dense layer's five operations, from any contents, leave the logits of what they find. -/
theorem dense_stretch (W : Valuation τ sig (Elt Ideal)) :
    after opsT1 W (Proc.devRef .tc main_v59)
      = hostLogits (W (Proc.devRef .tc main_v54)) (W (Proc.devRef .tc main_arg2)) (W (Proc.devRef .tc main_arg3)) := by
  simp (disch := decide) only [opsT1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  chain_rfl

/-! ### jax.nn.log_softmax's fifteen operations, in five steps -/

section Steps
variable {F : FTy → Type} [FloatOps F]

/-- The rows' maxima by `reduce` (two operations). -/
abbrev opsRowMax : List (HloOp τ sig (Elt F)) :=
  [ TRef.nullary (TRef.of (T := ⟨S_, .f32⟩) main_call1_cst) (constant S_ .f32 0xFF800000#32),
    TRef.binary (TRef.of (T := ⟨S100000x40, .f32⟩) main_v59) (TRef.of (T := ⟨S_, .f32⟩) main_call1_cst) (TRef.of (T := ⟨S100000, .f32⟩) main_call1_v0) (fun x v => Host.reduce FloatOps.maximumf x v reducesTo_S100000x40_S100000_d1 h_S_) ]

/-- The maximum with the broadcast initial value (three operations). -/
abbrev opsMaxInit : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- The shifted logits (three operations). -/
abbrev opsShift : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v59) (TRef.of (T := ⟨S100000x40, .f32⟩) main_call1_v4) (TRef.of (T := ⟨S100000x40, .f32⟩) main_call1_v5) subf ]

/-- The rows' sums of exponentials (three operations). -/
abbrev opsSumExp : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]

/-- The logarithm of those sums, subtracted (four operations). -/
abbrev opsLog : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v60) subf ]

theorem opsT2_split : (opsT2 : List (HloOp τ sig (Elt F))) = opsRowMax ++ (opsMaxInit ++ (opsShift ++ (opsSumExp ++ opsLog))) := rfl

end Steps

set_option maxRecDepth 65536 in
set_option maxHeartbeats 4000000 in
/-- The rows' maxima, from any contents; the logits untouched. -/
theorem rowMax_step (W : Valuation τ sig (Elt Ideal)) :
    after opsRowMax W (Proc.devRef .tc main_call1_v0)
      = Host.reduce (FloatOps.maximumf (F := Ideal) (φ := .f32)) (W (Proc.devRef .tc main_v59)) (constant (F := Ideal) S_ .f32 0xFF800000#32)
          reducesTo_S100000x40_S100000_d1 h_S_
    ∧ after opsRowMax W (Proc.devRef .tc main_v59) = W (Proc.devRef .tc main_v59) := by
  refine ⟨?_, ?_⟩ <;>
    (simp (disch := decide) only [opsRowMax, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
     first | done | chain_rfl)

set_option maxRecDepth 65536 in
set_option maxHeartbeats 4000000 in
/-- The maximum with the broadcast initial value, from any contents; the logits untouched. -/
theorem maxInit_step (W : Valuation τ sig (Elt Ideal)) :
    after opsMaxInit W (Proc.devRef .tc main_call1_v2)
      = maximumf (F := Ideal) (φ := .f32) (broadcastInDim S100000 ![] bcast_S_S100000 (constant (F := Ideal) S_ .f32 0xFF800000#32)) (W (Proc.devRef .tc main_call1_v0))
    ∧ after opsMaxInit W (Proc.devRef .tc main_v59) = W (Proc.devRef .tc main_v59) := by
  refine ⟨?_, ?_⟩ <;>
    (simp (disch := decide) only [opsMaxInit, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
     first | done | chain_rfl)

set_option maxRecDepth 65536 in
set_option maxHeartbeats 4000000 in
/-- The shifted logits, from any contents. -/
theorem shift_step (W : Valuation τ sig (Elt Ideal)) :
    after opsShift W (Proc.devRef .tc main_call1_v5)
      = subf (F := Ideal) (φ := .f32) (W (Proc.devRef .tc main_v59))
          (broadcastInDim S100000x40 ![0, 1] bcast_S100000x1_S100000x40_0_1
            (broadcastInDim S100000x1 ![0] bcast_S100000_S100000x1_0 (W (Proc.devRef .tc main_call1_v2)))) := by
  simp (disch := decide) only [opsShift, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  chain_rfl

set_option maxRecDepth 65536 in
set_option maxHeartbeats 4000000 in
/-- The rows' sums of exponentials, from any contents; the shifted logits untouched. -/
theorem sumExp_step (W : Valuation τ sig (Elt Ideal)) :
    after opsSumExp W (Proc.devRef .tc main_call1_v7)
      = Host.reduceAdd (F := Ideal) (φ := .f32) (Host.exp (W (Proc.devRef .tc main_call1_v5))) (constant (F := Ideal) S_ .f32 0x00000000#32)
          reducesTo_S100000x40_S100000_d1 h_S_
    ∧ after opsSumExp W (Proc.devRef .tc main_call1_v5) = W (Proc.devRef .tc main_call1_v5) := by
  refine ⟨?_, ?_⟩ <;>
    (simp (disch := decide) only [opsSumExp, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
     first | done | chain_rfl)

set_option maxRecDepth 65536 in
set_option maxHeartbeats 4000000 in
/-- The last four operations, from any contents: the shifted logits minus the logarithm of the sums found. -/
theorem log_step (W : Valuation τ sig (Elt Ideal)) :
    after opsLog W (Proc.devRef .tc main_v60)
      = subf (F := Ideal) (φ := .f32) (W (Proc.devRef .tc main_call1_v5))
          (broadcastInDim S100000x40 ![0, 1] bcast_S100000x1_S100000x40_0_1 (Host.log (broadcastInDim S100000x1 ![0] bcast_S100000_S100000x1_0
            (W (Proc.devRef .tc main_call1_v7))))) := by
  simp (disch := decide) only [opsLog, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  chain_rfl

/-- jax.nn.log_softmax's fifteen operations, from any contents, leave its operations applied to the logits found. -/
theorem softmax_stretch (W : Valuation τ sig (Elt Ideal)) :
    after opsT2 W (Proc.devRef .tc main_v60) = hostLogSoftmax (W (Proc.devRef .tc main_v59)) := by
  obtain ⟨hr, hr59⟩ := rowMax_step W
  obtain ⟨hm, hm59⟩ := maxInit_step (after opsRowMax W)
  obtain ⟨hs, hs5⟩ := sumExp_step (after opsShift (after opsMaxInit (after opsRowMax W)))
  rw [opsT2_split, LibAfterAppend.after_append, LibAfterAppend.after_append, LibAfterAppend.after_append,
    LibAfterAppend.after_append, log_step, hs, hs5, shift_step, hm, hm59, hr, hr59]
  rfl

/-- The last twenty operations, from any contents, leave the head function of what they find. -/
theorem tail_stretch (W : Valuation τ sig (Elt Ideal)) :
    after opsT2 (after opsT1 W) (Proc.devRef .tc main_v60)
      = head (W (Proc.devRef .tc main_v54)) (W (Proc.devRef .tc main_arg2)) (W (Proc.devRef .tc main_arg3)) := by
  rw [softmax_stretch, dense_stretch, hostHead_eq]

end Cert.ReferenceIdeal.Tail

end
-- ==== Proof.RefValue.lean ====
/-
  The reference's run, read: after its 91 operations the result buffer holds the head function of the propagated
  features, the weights and the bias — the five stretches of RefOps.lean one after the other — and the four argument
  arrays are as launched.
-/
import proofs.«106669_j17695265259896_1_alg».proof.Proof.RefOps
import proofs.«106669_j17695265259896_1_alg».proof.Proof.RefHost
import proofs.«106669_j17695265259896_1_alg».proof.Proof.RefTail
import proofs.«106669_j17695265259896_1_alg».proof.Proof.LibAfterAppend
import proofs.«106669_j17695265259896_1_alg».proof.Proof.Spec
import proofs.«106669_j17695265259896_1_alg».proof.Proof.Propagate
import Idealize.ShloMosaic.Lib.StableHlo.Run

noncomputable section

namespace Cert.ReferenceIdeal.RunValue

open Cert.ReferenceIdeal Cert.ReferenceIdeal.Gen Cert.ReferenceIdeal.Line Cert.DenseLogSoftmax Cert.KernelIdeal.Propagate
open Idealize.ShloMosaic Idealize.ShloMosaic.TcCoe Idealize.SL.Sem Idealize.ShloMosaic.StableHlo

/-- After the whole line, from any contents: the head function of the propagated features, the weights and the bias. -/
theorem result_eq (W : Valuation τ sig (Elt Ideal)) :
    after ops W (Proc.devRef .tc main_v60)
      = head (features (F := Ideal) (W (Proc.devRef .tc main_arg0)) (W (Proc.devRef .tc main_arg1)))
          (W (Proc.devRef .tc main_arg2)) (W (Proc.devRef .tc main_arg3)) := by
  obtain ⟨h54, h2, h3⟩ := HostSide.prefix_eq W
  rw [ops_split, LibAfterAppend.after_append, LibAfterAppend.after_append, LibAfterAppend.after_append,
    LibAfterAppend.after_append, Tail.tail_stretch, h54, h2, h3]

set_option maxRecDepth 65536 in
set_option maxHeartbeats 4000000 in
/-- No operation of the line writes an argument array. -/
theorem kept (W : Valuation τ sig (Elt Ideal)) :
    after ops W (Proc.devRef .tc main_arg0) = W (Proc.devRef .tc main_arg0)
    ∧ after ops W (Proc.devRef .tc main_arg1) = W (Proc.devRef .tc main_arg1)
    ∧ after ops W (Proc.devRef .tc main_arg2) = W (Proc.devRef .tc main_arg2)
    ∧ after ops W (Proc.devRef .tc main_arg3) = W (Proc.devRef .tc main_arg3) := by
  refine ⟨?_, ?_, ?_, ?_⟩ <;>
    simp (disch := decide) only [ops, after_cons, after_nil,
      nullary_result_ne', unary_result_ne', binary_result_ne', ternary_result_ne', quaternary_result_ne', reshape_result_ne',
      nary_result_ne', unaryIndexed_result_ne', binaryIndexed_result_ne']

/-- The reference's run: the result at the head function of the propagated features, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
        = head (features (F := Ideal) (m ((c.tc : Thread nD τ).loc main_arg0)) (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v60).trans (result_eq (launchContents m c)),
       (h c main_arg0).trans (kept (launchContents m c)).1,
       (h c main_arg1).trans (kept (launchContents m c)).2.1,
       (h c main_arg2).trans (kept (launchContents m c)).2.2.1,
       (h c main_arg3).trans (kept (launchContents m c)).2.2.2⟩)
    (run_after m ρ)

end Cert.ReferenceIdeal.RunValue

end
-- ==== Proof.lean ====
/-
  The five claims. Both programs apply the same host operations to the features and the edge list (the symmetric
  normalisation with self-loops and two propagation steps: Propagate.lean) and then compute, from the propagated
  features `X`, the weights `W` and the bias `b`, the row-wise log-softmax of `X · Wᵀ + b`: the kernel in one region over
  twenty blocks of 5000 rows, the reference by `dot_general` and jax.nn.log_softmax on the host. At the ideal values
  both are the head function of Spec.lean of one and the same array `X`: the rounding to bf16 on the way into the
  kernel's matrix product is the identity, a matrix product's entry is a finite sum, and the two row maxima are one
  fold of `max`. No law used needs the inputs finite. The ideal pass rewrote nothing, so `preserves` is `True`.
-/
import proofs.«106669_j17695265259896_1_alg».proof.Defs
import proofs.«106669_j17695265259896_1_alg».proof.Proof.Gen.Kernel
import proofs.«106669_j17695265259896_1_alg».proof.Proof.Gen.Kernel.Frame
import proofs.«106669_j17695265259896_1_alg».proof.Proof.Gen.KernelIdeal
import proofs.«106669_j17695265259896_1_alg».proof.Proof.Gen.KernelIdeal.Frame
import proofs.«106669_j17695265259896_1_alg».proof.Proof.Gen.KernelIdeal.Value
import proofs.«106669_j17695265259896_1_alg».proof.Proof.Gen.ReferenceIdeal
import proofs.«106669_j17695265259896_1_alg».proof.Proof.Gen.Pre_finite_inputs
import proofs.«106669_j17695265259896_1_alg».proof.Proof.KernelValue
import proofs.«106669_j17695265259896_1_alg».proof.Proof.KernelHost
import proofs.«106669_j17695265259896_1_alg».proof.Proof.RefValue
import Idealize.ShloMosaic.Adequacy
import Idealize.ShloMosaic.Init

noncomputable section

namespace Cert.Proof

open Idealize.ShloMosaic Idealize.ShloMosaic.TcCoe Idealize.SL.Sem
open Cert.DenseLogSoftmax Cert.KernelIdeal.Propagate

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.RunValue.run m ρ)

theorem preserves : Cert.preserves_Kernel_KernelIdeal := trivial

section
open Cert.KernelIdeal Cert.KernelIdeal.Gen

/-- The kernel's result is the head function of the propagated features, the weights and the bias as launched: the
    three arrays its input windows stage are the propagated features (KernelHost.lean) and two untouched arguments. -/
theorem kernel_result (m : (ℓ : Loc nD τ sig) → Buf (Elt Ideal) ℓ) (c : Dev nD) :
    Cert.KernelIdeal.Rows.result m c
      = head (features (F := Ideal) (m ((c : Thread nD τ).loc main_arg0)) (m ((c : Thread nD τ).loc main_arg1)))
          (m ((c : Thread nD τ).loc main_arg2)) (m ((c : Thread nD τ).loc main_arg3)) := by
  have e0 : V m c (Pipeline.arrRef spec0 0) = features (F := Ideal) (m ((c : Thread nD τ).loc main_arg0)) (m ((c : Thread nD τ).loc main_arg1)) :=
    Cert.KernelIdeal.HostSide.features_eq m c
  have e1 : V m c (Pipeline.arrRef spec0 1) = m ((c : Thread nD τ).loc main_arg2) := V_main_arg2 m c
  have e2 : V m c (Pipeline.arrRef spec0 2) = m ((c : Thread nD τ).loc main_arg3) := V_main_arg3 m c
  show head (V m c (Pipeline.arrRef spec0 0)) (V m c (Pipeline.arrRef spec0 1)) (V m c (Pipeline.arrRef spec0 2)) = _
  rw [e0, e1, e2]

end

/-- Both runs end with the head function of the propagated features, the weights and the bias. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.RunValue.run m' ρ')
  rw [(hagree c).1, (hagree c).2.1, (hagree c).2.2.1, (hagree c).2.2.2]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
